-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S4000000x4 : Shape := ⟨2, ![4000000, 4]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S4000000x4 : S_.BroadcastsInDim S4000000x4 (![] : Fin 0 → Fin S4000000x4.rank)
  reducesTo_S4000000x4_S_d0_1 : S4000000x4.ReducesTo [0, 1] S_

variable [Facts]

def fn {F : FTy → Type} [FloatOps F] (main_arg0 : FVec F S4000000x3 .f32) (main_arg1 : FVec F S4000000x4 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S4000000x4 .f32 := Host.absf main_arg1
  let main_cst_0 : FVec F S_ .f32 := constant S_ .f32 0x7F800000#32
  let main_v5 : FVec F S4000000x4 .f32 := broadcastInDim S4000000x4 ![] bcast_S_S4000000x4 main_cst_0
  let main_v6 : IVec S4000000x4 1 := cmpf .olt main_v4 main_v5
  let main_c_1 : IVec S_ 1 := constantI S_ 1 1#1
  let main_v7 : IVec S_ 1 := (fun x v => Host.reduce IntOp.andi x v reducesTo_S4000000x4_S_d0_1 h_S_) main_v6 main_c_1
  let main_v8 : IVec S_ 1 := andi main_v3 main_v7
  main_v8
-- ==== Kernel.lean ====
abbrev S4000000x3 : Shape := ⟨2, ![4000000, 3]⟩
abbrev S4000000x4 : Shape := ⟨2, ![4000000, 4]⟩
abbrev S4000000x9 : Shape := ⟨2, ![4000000, 9]⟩
abbrev S2000x3 : Shape := ⟨2, ![2000, 3]⟩
abbrev S2000x4 : Shape := ⟨2, ![2000, 4]⟩
abbrev S2000x9 : Shape := ⟨2, ![2000, 9]⟩
abbrev S2000x1 : Shape := ⟨2, ![2000, 1]⟩
abbrev S2000 : Shape := ⟨1, ![2000]⟩
abbrev S4000000x3x3 : Shape := ⟨3, ![4000000, 3, 3]⟩

abbrev nBuf : Space → Nat
  | .hbm => 4
  | .vmem => 6
  | .smem => 0
  | _ => 0

abbrev bufTy : (tb : Table) → Fin (tcTables nBuf tb) → BufTy
  | .hbm, ⟨0, _⟩ => ⟨S4000000x3, .f32⟩
  | .hbm, ⟨1, _⟩ => ⟨S4000000x4, .f32⟩
  | .hbm, ⟨2, _⟩ => ⟨S4000000x9, .f32⟩
  | .hbm, ⟨3, _⟩ => ⟨S4000000x3x3, .f32⟩
  | .local _ .vmem, ⟨0, _⟩ => ⟨S2000x3, .f32⟩
  | .local _ .vmem, ⟨1, _⟩ => ⟨S2000x3, .f32⟩
  | .local _ .vmem, ⟨2, _⟩ => ⟨S2000x4, .f32⟩
  | .local _ .vmem, ⟨3, _⟩ => ⟨S2000x4, .f32⟩
  | .local _ .vmem, ⟨4, _⟩ => ⟨S2000x9, .f32⟩
  | .local _ .vmem, ⟨5, _⟩ => ⟨S2000x9, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2000x3_S2000x3_0_0 : ∀ a, (![0, 0] : Fin 2 → Nat) a + S2000x3.size a ≤ S2000x3.size a
  h_S2000x3 : 0 < S2000x3.numel
  inb_S2000x4_S2000x4_0_0 : ∀ a, (![0, 0] : Fin 2 → Nat) a + S2000x4.size a ≤ S2000x4.size a
  h_S2000x4 : 0 < S2000x4.numel
  slices_S2000x4_o0_0_S2000x1 : S2000x4.Slices ![0, 0] S2000x1
  shapeCasts_S2000x1_S2000 : S2000x1.ShapeCasts S2000
  slices_S2000x4_o0_1_S2000x1 : S2000x4.Slices ![0, 1] S2000x1
  slices_S2000x4_o0_2_S2000x1 : S2000x4.Slices ![0, 2] S2000x1
  slices_S2000x4_o0_3_S2000x1 : S2000x4.Slices ![0, 3] S2000x1
  slices_S2000x3_o0_0_S2000x1 : S2000x3.Slices ![0, 0] S2000x1
  slices_S2000x3_o0_1_S2000x1 : S2000x3.Slices ![0, 1] S2000x1
  slices_S2000x3_o0_2_S2000x1 : S2000x3.Slices ![0, 2] S2000x1
  shapeCasts_S2000_S2000x1 : S2000.ShapeCasts S2000x1
  concatenates_S2000x1_S2000x1_S2000x1_S2000x1_S2000x1_S2000x1_S2000x1_S2000x1_S2000x1_S2000x9_d1 : Shape.Concatenates [S2000x1, S2000x1, S2000x1, S2000x1, S2000x1, S2000x1, S2000x1, S2000x1, S2000x1] S2000x9 1
  inb_S2000x9_S2000x9_0_0 : ∀ a, (![0, 0] : Fin 2 → Nat) a + S2000x9.size a ≤ S2000x9.size a
  h_S2000x9 : 0 < S2000x9.numel
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S4000000x3.size a
  hwx0_0 : ∀ i : grid0.Coords, EltTy.bits .f32 = 32 ∨ (Rect.block (s := S4000000x3) S2000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x4.size a ≤ S4000000x4.size a
  hwx0_1 : ∀ i : grid0.Coords, EltTy.bits .f32 = 32 ∨ (Rect.block (s := S4000000x4) S2000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x9.size a ≤ S4000000x9.size a
  hwx0_2 : ∀ i : grid0.Coords, EltTy.bits .f32 = 32 ∨ (Rect.block (s := S4000000x9) S2000x9.size (cc0_transform_2 i) (hinb0_2 i)).WholeWords (EltTy.packing .f32)

variable [Facts₀]

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4000000x4 : Shape := ⟨2, ![4000000, 4]⟩
abbrev S_ : Shape := ⟨0, ![]⟩
abbrev S4000000 : Shape := ⟨1, ![4000000]⟩
abbrev S4000000x1 : Shape := ⟨2, ![4000000, 1]⟩
abbrev S4000000x9 : Shape := ⟨2, ![4000000, 9]⟩
abbrev S4000000x3x3 : Shape := ⟨3, ![4000000, 3, 3]⟩
abbrev S4000000x1x3 : Shape := ⟨3, ![4000000, 1, 3]⟩

abbrev nBuf : Space → Nat
  | .hbm => 100
  | .vmem => 0
  | .smem => 0
  | _ => 0

abbrev bufTy : (tb : Table) → Fin (tcTables nBuf tb) → BufTy
  | .hbm, ⟨0, _⟩ => ⟨S4000000x3, .f32⟩
  | .hbm, ⟨1, _⟩ => ⟨S4000000x4, .f32⟩
  | .hbm, ⟨2, _⟩ => ⟨S4000000x3, .f32⟩
  | .hbm, ⟨3, _⟩ => ⟨S4000000x4, .f32⟩
  | .hbm, ⟨4, _⟩ => ⟨S_, .f32⟩
  | .hbm, ⟨5, _⟩ => ⟨S4000000, .f32⟩
  | .hbm, ⟨6, _⟩ => ⟨S4000000x1, .f32⟩
  | .hbm, ⟨7, _⟩ => ⟨S4000000x1, .f32⟩
  | .hbm, ⟨8, _⟩ => ⟨S_, .f32⟩
  | .hbm, ⟨9, _⟩ => ⟨S_, .f32⟩
  | .hbm, ⟨10, _⟩ => ⟨S4000000x1, .f32⟩
  | .hbm, ⟨11, _⟩ => ⟨S4000000x1, .f32⟩
  | .hbm, ⟨12, _⟩ => ⟨S4000000x4, .f32⟩
  | .hbm, ⟨13, _⟩ => ⟨S4000000x4, .f32⟩
  | .hbm, ⟨14, _⟩ => ⟨S4000000x1, .f32⟩
  | .hbm, ⟨15, _⟩ => ⟨S4000000, .f32⟩
  | .hbm, ⟨16, _⟩ => ⟨S4000000x1, .f32⟩
  | .hbm, ⟨17, _⟩ => ⟨S4000000, .f32⟩
  | .hbm, ⟨18, _⟩ => ⟨S4000000x1, .f32⟩
  | .hbm, ⟨19, _⟩ => ⟨S4000000, .f32⟩
  | .hbm, ⟨20, _⟩ => ⟨S4000000x1, .f32⟩
  | .hbm, ⟨21, _⟩ => ⟨S4000000, .f32⟩
  | .hbm, ⟨22, _⟩ => ⟨S4000000, .f32⟩
  | .hbm, ⟨23, _⟩ => ⟨S4000000, .f32⟩
  | .hbm, ⟨24, _⟩ => ⟨S4000000, .f32⟩
  | .hbm, ⟨25, _⟩ => ⟨S_, .f32⟩
  | .hbm, ⟨26, _⟩ => ⟨S4000000, .f32⟩
  | .hbm, ⟨27, _⟩ => ⟨S4000000, .f32⟩
  | .hbm, ⟨28, _⟩ => ⟨S_, .f32⟩
  | .hbm, ⟨29, _⟩ => ⟨S4000000, .f32⟩
  | .hbm, ⟨30, _⟩ => ⟨S4000000, .f32⟩
  | .hbm, ⟨31, _⟩ => ⟨S4000000, .f32⟩
  | .hbm, ⟨32, _⟩ => ⟨S4000000, .f32⟩
  | .hbm, ⟨33, _⟩ => ⟨S4000000, .f32⟩
  | .hbm, ⟨34, _⟩ => ⟨S_, .f32⟩
  | .hbm, ⟨35, _⟩ => ⟨S4000000, .f32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S4000000, .f32⟩
  | .hbm, ⟨40, _⟩ => ⟨S_, .f32⟩
  | .hbm, ⟨41, _⟩ => ⟨S4000000, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S_, .f32⟩
  | .hbm, ⟨47, _⟩ => ⟨S4000000, .f32⟩
  | .hbm, ⟨48, _⟩ => ⟨S4000000, .f32⟩
  | .hbm, ⟨49, _⟩ => ⟨S4000000, .f32⟩
  | .hbm, ⟨50, _⟩ => ⟨S4000000, .f32⟩
  | .hbm, ⟨51, _⟩ => ⟨S4000000, .f32⟩
  | .hbm, ⟨52, _⟩ => ⟨S_, .f32⟩
  | .hbm, ⟨53, _⟩ => ⟨S4000000, .f32⟩
  | .hbm, ⟨54, _⟩ => ⟨S4000000, .f32⟩
  | .hbm, ⟨55, _⟩ => ⟨S_, .f32⟩
  | .hbm, ⟨56, _⟩ => ⟨S4000000, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S_, .f32⟩
  | .hbm, ⟨62, _⟩ => ⟨S4000000, .f32⟩
  | .hbm, ⟨63, _⟩ => ⟨S4000000, .f32⟩
  | .hbm, ⟨64, _⟩ => ⟨S4000000, .f32⟩
  | .hbm, ⟨65, _⟩ => ⟨S4000000, .f32⟩
  | .hbm, ⟨66, _⟩ => ⟨S4000000, .f32⟩
  | .hbm, ⟨67, _⟩ => ⟨S_, .f32⟩
  | .hbm, ⟨68, _⟩ => ⟨S4000000, .f32⟩
  | .hbm, ⟨69, _⟩ => ⟨S4000000, .f32⟩
  | .hbm, ⟨70, _⟩ => ⟨S4000000, .f32⟩
  | .hbm, ⟨71, _⟩ => ⟨S4000000, .f32⟩
  | .hbm, ⟨72, _⟩ => ⟨S4000000, .f32⟩
  | .hbm, ⟨73, _⟩ => ⟨S_, .f32⟩
  | .hbm, ⟨74, _⟩ => ⟨S4000000, .f32⟩
  | .hbm, ⟨75, _⟩ => ⟨S4000000, .f32⟩
  | .hbm, ⟨76, _⟩ => ⟨S4000000, .f32⟩
  | .hbm, ⟨77, _⟩ => ⟨S4000000, .f32⟩
  | .hbm, ⟨78, _⟩ => ⟨S4000000, .f32⟩
  | .hbm, ⟨79, _⟩ => ⟨S_, .f32⟩
  | .hbm, ⟨80, _⟩ => ⟨S4000000, .f32⟩
  | .hbm, ⟨81, _⟩ => ⟨S4000000, .f32⟩
  | .hbm, ⟨82, _⟩ => ⟨S_, .f32⟩
  | .hbm, ⟨83, _⟩ => ⟨S4000000, .f32⟩
  | .hbm, ⟨84, _⟩ => ⟨S4000000, .f32⟩
  | .hbm, ⟨85, _⟩ => ⟨S4000000x1, .f32⟩
  | .hbm, ⟨86, _⟩ => ⟨S4000000x1, .f32⟩
  | .hbm, ⟨87, _⟩ => ⟨S4000000x1, .f32⟩
  | .hbm, ⟨88, _⟩ => ⟨S4000000x1, .f32⟩
  | .hbm, ⟨89, _⟩ => ⟨S4000000x1, .f32⟩
  | .hbm, ⟨90, _⟩ => ⟨S4000000x1, .f32⟩
  | .hbm, ⟨91, _⟩ => ⟨S4000000x1, .f32⟩
  | .hbm, ⟨92, _⟩ => ⟨S4000000x1, .f32⟩
  | .hbm, ⟨93, _⟩ => ⟨S4000000x1, .f32⟩
  | .hbm, ⟨94, _⟩ => ⟨S4000000x9, .f32⟩
  | .hbm, ⟨95, _⟩ => ⟨S4000000x3x3, .f32⟩
  | .hbm, ⟨96, _⟩ => ⟨S4000000x1x3, .f32⟩
  | .hbm, ⟨97, _⟩ => ⟨S4000000x3x3, .f32⟩
  | .hbm, ⟨98, _⟩ => ⟨S4000000x3x3, .f32⟩
  | .hbm, ⟨99, _⟩ => ⟨S4000000x3x3, .f32⟩
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.Spec.lean ====
/-
  The covariance of a scaled rotation, row by row, on the extended reals.

  A row carries three log-scales and a quaternion `q = (w, x, y, z)`. The quaternion is divided by its
  length clamped below by a small positive constant, `u = q / max (√(w² + x² + y² + z²)) ε`; `rot u` is
  the rotation matrix of `u`; its columns are scaled by `s j = exp (log-scale j)`; and the result is the
  Gram matrix of the rows of the scaled rotation, `cov s u i k = ∑ j, (rot u i j · s j) · (rot u k j · s j)`.
  The three constants are kept as the words that spell them: the same word means the same extended real
  wherever it is read.
-/
import Idealize.ShloMosaic.PureOps.Ideal
import Idealize.ShloMosaic.Lib.ValueIdx

noncomputable section

namespace Cert.Covariance

open Idealize.ShloMosaic Idealize.ShloMosaic.ValueIdx
open scoped BigOperators

/-- The clamp under the quaternion's length, the word for `1e-12`. -/
abbrev eps : EReal := Ideal.ofBits .f32 0x2B8CBCCC#32
/-- The word for `1`. -/
abbrev one : EReal := Ideal.ofBits .f32 0x3F800000#32
/-- The word for `2`. -/
abbrev two : EReal := Ideal.ofBits .f32 0x40000000#32

/-- The quaternion's length, clamped below by `eps`. -/
def len (q : Fin 4 → EReal) : EReal :=
  max (Ideal.sqrt (q 0 * q 0 + q 1 * q 1 + q 2 * q 2 + q 3 * q 3)) eps

/-- The quaternion divided by its clamped length. -/
def unitq (q : Fin 4 → EReal) : Fin 4 → EReal := fun l => Ideal.div (q l) (len q)

/-- The rotation matrix of a quaternion `u = (w, x, y, z)`. -/
def rot (u : Fin 4 → EReal) : Fin 3 → Fin 3 → EReal :=
  ![![one - two * (u 2 * u 2 + u 3 * u 3), two * (u 1 * u 2 - u 0 * u 3), two * (u 1 * u 3 + u 0 * u 2)],
    ![two * (u 1 * u 2 + u 0 * u 3), one - two * (u 1 * u 1 + u 3 * u 3), two * (u 2 * u 3 - u 0 * u 1)],
    ![two * (u 1 * u 3 - u 0 * u 2), two * (u 2 * u 3 + u 0 * u 1), one - two * (u 1 * u 1 + u 2 * u 2)]]

/-- Entry `(i, k)` of `(R · diag s) · (R · diag s)ᵀ`. -/
def cov (s : Fin 3 → EReal) (u : Fin 4 → EReal) (i k : Fin 3) : EReal :=
  ∑ j : Fin 3, (rot u i j * s j) * (rot u k j * s j)

/-- Row `n`'s covariance entry `(i, k)`, from the matrix of log-scales `[N, 3]` and the matrix of quaternions `[N, 4]`. -/
def rowCov {N : ℕ} (A0 : (⟨2, ![N, 3]⟩ : Shape).Idx → EReal) (A1 : (⟨2, ![N, 4]⟩ : Shape).Idx → EReal)
    (n : Fin N) (i k : Fin 3) : EReal :=
  cov (fun j => Ideal.exp (A0 (ix2 n j))) (unitq fun l => A1 (ix2 n l)) i k

/-- The nine entries of each row laid out along the row: column `c` holds entry `(c / 3, c % 3)`. -/
def flat {N : ℕ} (A0 : (⟨2, ![N, 3]⟩ : Shape).Idx → EReal) (A1 : (⟨2, ![N, 4]⟩ : Shape).Idx → EReal) :
    (⟨2, ![N, 9]⟩ : Shape).Idx → EReal :=
  fun j => rowCov (N := N) A0 A1 (j 0) ⟨(j 1).val / 3, Nat.div_lt_of_lt_mul (j 1).isLt⟩ ⟨(j 1).val % 3, Nat.mod_lt _ (by decide)⟩

/-- The whole result, `[N, 3, 3]`: entry `(n, i, k)` is row `n`'s covariance entry `(i, k)`. -/
def result {N : ℕ} (A0 : (⟨2, ![N, 3]⟩ : Shape).Idx → EReal) (A1 : (⟨2, ![N, 4]⟩ : Shape).Idx → EReal) :
    (⟨3, ![N, 3, 3]⟩ : Shape).Idx → EReal :=
  fun j => rowCov (N := N) A0 A1 (j 0) (j 1) (j 2)

theorem flat_apply {N : ℕ} (A0 : (⟨2, ![N, 3]⟩ : Shape).Idx → EReal) (A1 : (⟨2, ![N, 4]⟩ : Shape).Idx → EReal)
    (n : Fin N) (c : Fin 9) :
    flat A0 A1 (ix2 n c) = rowCov A0 A1 n ⟨c.val / 3, Nat.div_lt_of_lt_mul c.isLt⟩ ⟨c.val % 3, Nat.mod_lt _ (by decide)⟩ := rfl

theorem result_apply {N : ℕ} (A0 : (⟨2, ![N, 3]⟩ : Shape).Idx → EReal) (A1 : (⟨2, ![N, 4]⟩ : Shape).Idx → EReal)
    (n : Fin N) (i k : Fin 3) : result A0 A1 (ix3 n i k) = rowCov A0 A1 n i k := rfl

end Cert.Covariance

end
-- ==== Proof.LibNineColumns.lean ====
/-
  Layout operations on tall matrices read at coordinates, generic in the number of rows:
  a column cut out of a matrix and flattened to a vector, a vector stood up as a column,
  nine columns laid side by side, and the nine columns of a row regrouped as a 3×3 matrix.
  Each lemma reads the operation at an index written with `ix1`/`ix2`/`ix3` as its operand at
  the index the coordinates' arithmetic names.
-/
import Idealize.ShloMosaic.Lib.Pipeline.Value
import Idealize.ShloMosaic.Lib.ValueIdx
import Idealize.ShloMosaic.Lib.ValueLayout

namespace Idealize.ShloMosaic.NineColumns

open Idealize.ShloMosaic Idealize.ShloMosaic.ValueIdx

variable {α : Type}

/-- A column `[a, 1]` flattened to a vector `[a]` reads, at `r`, the column at `(r, 0)`. -/
theorem shapeCast_a1_a_apply {a : ℕ} (x : (⟨2, ![a, 1]⟩ : Shape).Idx → α)
    (h : (⟨2, ![a, 1]⟩ : Shape).ShapeCasts ⟨1, ![a]⟩) (r : Fin a) :
    shapeCast ⟨1, ![a]⟩ x h (ix1 r) = x (ix2 r (0 : Fin 1)) :=
  shapeCast_apply x h _ _ (by
    rw [Shape.rowMajor_val_two, Shape.rowMajor_val_one]
    show r.val * 1 + 0 = r.val
    omega)

/-- A vector `[a]` stood up as a column `[a, 1]` reads, at `(r, u)`, the vector at `r`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- Column `c` of a matrix `[a, b]`, cut out as `[a, 1]` and flattened to `[a]`, reads at `r` the matrix at `(r, c)`. -/
theorem column_apply {a b : ℕ} (c : ℕ) (x : (⟨2, ![a, b]⟩ : Shape).Idx → α)
    (hs : (⟨2, ![a, b]⟩ : Shape).Slices ![0, c] ⟨2, ![a, 1]⟩)
    (hc : (⟨2, ![a, 1]⟩ : Shape).ShapeCasts ⟨1, ![a]⟩) (r : Fin a) (k : Fin b) (hk : k.val = c) :
    shapeCast ⟨1, ![a]⟩ (extractStridedSlice ⟨2, ![a, 1]⟩ ![0, c] x hs) hc (ix1 r) = x (ix2 r k) :=
  (shapeCast_a1_a_apply _ hc r).trans
    (slice2_axis1_apply c x hs r (0 : Fin 1) k (by rw [hk]; rfl))

/-- Nine columns `[a, 1]` laid side by side as `[a, 9]` read, at `(r, c)`, column `c` at `(r, 0)`. -/
theorem concat9_apply {a : ℕ} (v : Fin 9 → ((⟨2, ![a, 1]⟩ : Shape).Idx → α))
    (h : Shape.Concatenates [(⟨2, ![a, 1]⟩ : Shape), ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩] (⟨2, ![a, 9]⟩ : Shape) 1)
    (r : Fin a) (c : Fin 9) :
    concatenate (⟨2, ![a, 9]⟩ : Shape) 1 [⟨⟨2, ![a, 1]⟩, v 0⟩, ⟨⟨2, ![a, 1]⟩, v 1⟩, ⟨⟨2, ![a, 1]⟩, v 2⟩,
      ⟨⟨2, ![a, 1]⟩, v 3⟩, ⟨⟨2, ![a, 1]⟩, v 4⟩, ⟨⟨2, ![a, 1]⟩, v 5⟩, ⟨⟨2, ![a, 1]⟩, v 6⟩, ⟨⟨2, ![a, 1]⟩, v 7⟩,
      ⟨⟨2, ![a, 1]⟩, v 8⟩] h (ix2 r c) = v c (ix2 r (0 : Fin 1)) :=
  concatenate_ofFn_unit_apply (t := ⟨2, ![a, 9]⟩) (s₁ := ⟨2, ![a, 1]⟩) (1 : Fin 2) v h rfl rfl (ix2 r c) c rfl
    (ix2 r (0 : Fin 1)) (fun b hb => by
      match b with
      | ⟨0, _⟩ => rfl
      | ⟨1, _⟩ => exact absurd rfl hb)

/-- A matrix `[a, 9]` regrouped as `[a, 3, 3]` reads, at `(n, i, k)`, the matrix at `(n, 3 i + k)`. -/
theorem shapeCast_a9_a33_apply {a : ℕ} (x : (⟨2, ![a, 9]⟩ : Shape).Idx → α)
    (h : (⟨2, ![a, 9]⟩ : Shape).ShapeCasts ⟨3, ![a, 3, 3]⟩) (n : Fin a) (i k : Fin 3) (c : Fin 9)
    (hc : c.val = 3 * i.val + k.val) :
    shapeCast ⟨3, ![a, 3, 3]⟩ x h (ix3 n i k) = x (ix2 n c) :=
  shapeCast_apply x h _ _ (by
    rw [Shape.rowMajor_val_two, Shape.rowMajor_val_three]
    show n.val * 9 + c.val = (n.val * 3 + i.val) * 3 + k.val
    omega)

end Idealize.ShloMosaic.NineColumns
-- ==== Proof.Algebra.lean ====
/-
  Dividing by the clamped length. The clamp is a positive real, so the clamped length is never zero,
  and then multiplying by the reciprocal `1 / L` is dividing by `L` for EVERY extended real numerator:
  both are the product with `L⁻¹`. No finiteness of the inputs is used.
-/
import proofs.«128820_j14929306321119_2_alg».proof.Proof.Spec

noncomputable section

namespace Cert.Covariance

open Idealize.ShloMosaic

/-- The word for `1` denotes `1`. -/
theorem one_eq : one = 1 := by
  show Ideal.ofBits .f32 0x3F800000#32 = 1
  simp [Ideal.ofBits, Ideal.ieee, -EReal.coe_mul]; norm_num

/-- The clamp is positive. -/
theorem eps_pos : 0 < eps := by
  show 0 < Ideal.ofBits .f32 0x2B8CBCCC#32
  simp [Ideal.ofBits, Ideal.ieee, -EReal.coe_mul]

/-- The clamped length is not zero. -/
theorem len_ne_zero (q : Fin 4 → EReal) : len q ≠ 0 :=
  (lt_of_lt_of_le eps_pos (le_max_right _ _)).ne'

/-- A numerator times the reciprocal of the clamped length is the numerator divided by it. -/
theorem mul_recip_len (a : EReal) (q : Fin 4 → EReal) : a * Ideal.div one (len q) = Ideal.div a (len q) := by
  unfold Ideal.div
  rw [if_neg (len_ne_zero q), if_neg (len_ne_zero q), one_eq, one_mul]

end Cert.Covariance

end
-- ==== Proof.PayloadColumns.lean ====
/-
  The body's values at one row, first layer: the four quaternion components and the three scales as columns
  of the two input blocks, the reciprocal of the clamped length, and the unit quaternion's components.
-/
import proofs.«128820_j14929306321119_2_alg».proof.Proof.Gen.KernelIdeal.Skeleton
import proofs.«128820_j14929306321119_2_alg».proof.Proof.Spec
import proofs.«128820_j14929306321119_2_alg».proof.Proof.Algebra
import proofs.«128820_j14929306321119_2_alg».proof.Proof.LibNineColumns
import Idealize.ShloMosaic.Lib.ValueIdx

noncomputable section

namespace Cert.KernelIdeal.BlockValue

open Idealize.ShloMosaic Idealize.ShloMosaic.ValueIdx Idealize.ShloMosaic.NineColumns
open Cert.KernelIdeal Cert.KernelIdeal.Gen Cert.Covariance

variable (x0 : Vec Ideal S2000x3 .f32) (x1 : Vec Ideal S2000x4 .f32) (r : Fin 2000)

/-- Row `r` of the quaternion block. -/
abbrev quat : Fin 4 → EReal := fun l => x1 (ix2 r l)
/-- Row `r`'s scales. -/
abbrev scale : Fin 3 → EReal := fun j => Ideal.exp (x0 (ix2 r j))

theorem w_apply : k0_pay3 (F := Ideal) x1 (ix1 r) = quat x1 r 0 :=
  column_apply 0 x1 _ _ r (0 : Fin 4) rfl
theorem x_apply : k0_pay4 (F := Ideal) x1 (ix1 r) = quat x1 r 1 :=
  column_apply 1 x1 _ _ r (1 : Fin 4) rfl
theorem y_apply : k0_pay5 (F := Ideal) x1 (ix1 r) = quat x1 r 2 :=
  column_apply 2 x1 _ _ r (2 : Fin 4) rfl
theorem z_apply : k0_pay6 (F := Ideal) x1 (ix1 r) = quat x1 r 3 :=
  column_apply 3 x1 _ _ r (3 : Fin 4) rfl

theorem s0_apply : k0_pay12 (F := Ideal) x0 (ix1 r) = scale x0 r 0 :=
  column_apply 0 (k0_pay2 (F := Ideal) x0) _ _ r (0 : Fin 3) rfl
theorem s1_apply : k0_pay13 (F := Ideal) x0 (ix1 r) = scale x0 r 1 :=
  column_apply 1 (k0_pay2 (F := Ideal) x0) _ _ r (1 : Fin 3) rfl
theorem s2_apply : k0_pay14 (F := Ideal) x0 (ix1 r) = scale x0 r 2 :=
  column_apply 2 (k0_pay2 (F := Ideal) x0) _ _ r (2 : Fin 3) rfl

/-- The reciprocal of the clamped length of row `r`'s quaternion. -/
theorem recip_apply : k0_pay7 (F := Ideal) x1 (ix1 r) = Ideal.div one (len (quat x1 r)) := by
  show Ideal.div one (max (Ideal.sqrt (k0_pay3 (F := Ideal) x1 (ix1 r) * k0_pay3 (F := Ideal) x1 (ix1 r)
      + k0_pay4 (F := Ideal) x1 (ix1 r) * k0_pay4 (F := Ideal) x1 (ix1 r)
      + k0_pay5 (F := Ideal) x1 (ix1 r) * k0_pay5 (F := Ideal) x1 (ix1 r)
      + k0_pay6 (F := Ideal) x1 (ix1 r) * k0_pay6 (F := Ideal) x1 (ix1 r))) eps) = _
  rw [w_apply, x_apply, y_apply, z_apply]
  rfl

theorem u0_apply : k0_pay8 (F := Ideal) x1 (ix1 r) = unitq (quat x1 r) 0 := by
  show k0_pay3 (F := Ideal) x1 (ix1 r) * k0_pay7 (F := Ideal) x1 (ix1 r) = _
  rw [w_apply, recip_apply, mul_recip_len]; rfl
theorem u1_apply : k0_pay9 (F := Ideal) x1 (ix1 r) = unitq (quat x1 r) 1 := by
  show k0_pay4 (F := Ideal) x1 (ix1 r) * k0_pay7 (F := Ideal) x1 (ix1 r) = _
  rw [x_apply, recip_apply, mul_recip_len]; rfl
theorem u2_apply : k0_pay10 (F := Ideal) x1 (ix1 r) = unitq (quat x1 r) 2 := by
  show k0_pay5 (F := Ideal) x1 (ix1 r) * k0_pay7 (F := Ideal) x1 (ix1 r) = _
  rw [y_apply, recip_apply, mul_recip_len]; rfl
theorem u3_apply : k0_pay11 (F := Ideal) x1 (ix1 r) = unitq (quat x1 r) 3 := by
  show k0_pay6 (F := Ideal) x1 (ix1 r) * k0_pay7 (F := Ideal) x1 (ix1 r) = _
  rw [z_apply, recip_apply, mul_recip_len]; rfl

end Cert.KernelIdeal.BlockValue

end
-- ==== Proof.PayloadRot.lean ====
/-
  The body's values at one row, second layer: the nine entries of the rotation matrix of the unit
  quaternion, each scaled by its column's scale, and the two partial dot products the body keeps.
-/
import proofs.«128820_j14929306321119_2_alg».proof.Proof.PayloadColumns

noncomputable section

namespace Cert.KernelIdeal.BlockValue

open Idealize.ShloMosaic Idealize.ShloMosaic.ValueIdx
open Cert.KernelIdeal Cert.KernelIdeal.Gen Cert.Covariance

variable (x0 : Vec Ideal S2000x3 .f32) (x1 : Vec Ideal S2000x4 .f32) (r : Fin 2000)

/-- Row `r`'s unit quaternion. -/
abbrev uq : Fin 4 → EReal := unitq (quat x1 r)

/-! ### The rotation's first row, unscaled (the body scales it later) -/

theorem r00_apply : k0_pay15 (F := Ideal) x1 (ix1 r) = rot (uq x1 r) 0 0 := by
  show one - two * (k0_pay10 (F := Ideal) x1 (ix1 r) * k0_pay10 (F := Ideal) x1 (ix1 r)
    + k0_pay11 (F := Ideal) x1 (ix1 r) * k0_pay11 (F := Ideal) x1 (ix1 r)) = _
  rw [u2_apply, u3_apply]; rfl

theorem r01_apply : k0_pay16 (F := Ideal) x1 (ix1 r) = rot (uq x1 r) 0 1 := by
  show two * (k0_pay9 (F := Ideal) x1 (ix1 r) * k0_pay10 (F := Ideal) x1 (ix1 r)
    - k0_pay8 (F := Ideal) x1 (ix1 r) * k0_pay11 (F := Ideal) x1 (ix1 r)) = _
  rw [u0_apply, u1_apply, u2_apply, u3_apply]; rfl

theorem h02_apply : k0_pay17 (F := Ideal) x1 (ix1 r) = uq x1 r 1 * uq x1 r 3 + uq x1 r 0 * uq x1 r 2 := by
  show k0_pay9 (F := Ideal) x1 (ix1 r) * k0_pay11 (F := Ideal) x1 (ix1 r)
    + k0_pay8 (F := Ideal) x1 (ix1 r) * k0_pay10 (F := Ideal) x1 (ix1 r) = _
  rw [u0_apply, u1_apply, u2_apply, u3_apply]

/-! ### The nine scaled entries `rot u i j * s j` -/

abbrev RS00 : FVec Ideal S2000 .f32 := k0_pay19 (F := Ideal) (k0_pay12 x0) (k0_pay15 x1)
abbrev RS01 : FVec Ideal S2000 .f32 := k0_pay20 (F := Ideal) (k0_pay13 x0) (k0_pay16 x1)
abbrev RS02 : FVec Ideal S2000 .f32 := k0_pay21 (F := Ideal) (k0_pay14 x0) (k0_pay17 x1) (k0_pay18 (F := Ideal))
abbrev RS10 : FVec Ideal S2000 .f32 := k0_pay22 (F := Ideal) (k0_pay8 x1) (k0_pay9 x1) (k0_pay10 x1) (k0_pay11 x1) (k0_pay12 x0)
abbrev RS11 : FVec Ideal S2000 .f32 := k0_pay23 (F := Ideal) (k0_pay9 x1) (k0_pay11 x1) (k0_pay13 x0)
abbrev RS12 : FVec Ideal S2000 .f32 := k0_pay24 (F := Ideal) (k0_pay8 x1) (k0_pay9 x1) (k0_pay10 x1) (k0_pay11 x1) (k0_pay14 x0)
abbrev RS20 : FVec Ideal S2000 .f32 := k0_pay25 (F := Ideal) (k0_pay8 x1) (k0_pay9 x1) (k0_pay10 x1) (k0_pay11 x1) (k0_pay12 x0)
abbrev RS21 : FVec Ideal S2000 .f32 := k0_pay26 (F := Ideal) (k0_pay8 x1) (k0_pay9 x1) (k0_pay10 x1) (k0_pay11 x1) (k0_pay13 x0)
abbrev RS22 : FVec Ideal S2000 .f32 := k0_pay27 (F := Ideal) (k0_pay9 x1) (k0_pay10 x1) (k0_pay14 x0)

theorem rs00_apply : RS00 x0 x1 (ix1 r) = rot (uq x1 r) 0 0 * scale x0 r 0 := by
  show k0_pay15 (F := Ideal) x1 (ix1 r) * k0_pay12 (F := Ideal) x0 (ix1 r) = _
  rw [r00_apply, s0_apply]

theorem rs01_apply : RS01 x0 x1 (ix1 r) = rot (uq x1 r) 0 1 * scale x0 r 1 := by
  show k0_pay16 (F := Ideal) x1 (ix1 r) * k0_pay13 (F := Ideal) x0 (ix1 r) = _
  rw [r01_apply, s1_apply]

theorem rs02_apply : RS02 x0 x1 (ix1 r) = rot (uq x1 r) 0 2 * scale x0 r 2 := by
  show two * k0_pay17 (F := Ideal) x1 (ix1 r) * k0_pay14 (F := Ideal) x0 (ix1 r) = _
  rw [h02_apply, s2_apply]; rfl

theorem rs10_apply : RS10 x0 x1 (ix1 r) = rot (uq x1 r) 1 0 * scale x0 r 0 := by
  show two * (k0_pay9 (F := Ideal) x1 (ix1 r) * k0_pay10 (F := Ideal) x1 (ix1 r)
    + k0_pay8 (F := Ideal) x1 (ix1 r) * k0_pay11 (F := Ideal) x1 (ix1 r)) * k0_pay12 (F := Ideal) x0 (ix1 r) = _
  rw [u0_apply, u1_apply, u2_apply, u3_apply, s0_apply]; rfl

theorem rs11_apply : RS11 x0 x1 (ix1 r) = rot (uq x1 r) 1 1 * scale x0 r 1 := by
  show (one - two * (k0_pay9 (F := Ideal) x1 (ix1 r) * k0_pay9 (F := Ideal) x1 (ix1 r)
    + k0_pay11 (F := Ideal) x1 (ix1 r) * k0_pay11 (F := Ideal) x1 (ix1 r))) * k0_pay13 (F := Ideal) x0 (ix1 r) = _
  rw [u1_apply, u3_apply, s1_apply]; rfl

theorem rs12_apply : RS12 x0 x1 (ix1 r) = rot (uq x1 r) 1 2 * scale x0 r 2 := by
  show two * (k0_pay10 (F := Ideal) x1 (ix1 r) * k0_pay11 (F := Ideal) x1 (ix1 r)
    - k0_pay8 (F := Ideal) x1 (ix1 r) * k0_pay9 (F := Ideal) x1 (ix1 r)) * k0_pay14 (F := Ideal) x0 (ix1 r) = _
  rw [u0_apply, u1_apply, u2_apply, u3_apply, s2_apply]; rfl

theorem rs20_apply : RS20 x0 x1 (ix1 r) = rot (uq x1 r) 2 0 * scale x0 r 0 := by
  show two * (k0_pay9 (F := Ideal) x1 (ix1 r) * k0_pay11 (F := Ideal) x1 (ix1 r)
    - k0_pay8 (F := Ideal) x1 (ix1 r) * k0_pay10 (F := Ideal) x1 (ix1 r)) * k0_pay12 (F := Ideal) x0 (ix1 r) = _
  rw [u0_apply, u1_apply, u2_apply, u3_apply, s0_apply]; rfl

theorem rs21_apply : RS21 x0 x1 (ix1 r) = rot (uq x1 r) 2 1 * scale x0 r 1 := by
  show two * (k0_pay10 (F := Ideal) x1 (ix1 r) * k0_pay11 (F := Ideal) x1 (ix1 r)
    + k0_pay8 (F := Ideal) x1 (ix1 r) * k0_pay9 (F := Ideal) x1 (ix1 r)) * k0_pay13 (F := Ideal) x0 (ix1 r) = _
  rw [u0_apply, u1_apply, u2_apply, u3_apply, s1_apply]; rfl

theorem rs22_apply : RS22 x0 x1 (ix1 r) = rot (uq x1 r) 2 2 * scale x0 r 2 := by
  show (one - two * (k0_pay9 (F := Ideal) x1 (ix1 r) * k0_pay9 (F := Ideal) x1 (ix1 r)
    + k0_pay10 (F := Ideal) x1 (ix1 r) * k0_pay10 (F := Ideal) x1 (ix1 r))) * k0_pay14 (F := Ideal) x0 (ix1 r) = _
  rw [u1_apply, u2_apply, s2_apply]; rfl

/-! ### The two dot products the body forms before the last stretch -/

/-- The first row's squared length: entry (0, 0) of the covariance. -/
abbrev C00 : FVec Ideal S2000 .f32 :=
  k0_pay28 (F := Ideal) (k0_pay12 x0) (k0_pay13 x0) (k0_pay14 x0) (k0_pay15 x1) (k0_pay16 x1) (k0_pay17 x1) (k0_pay18 (F := Ideal))
/-- The first two terms of entry (0, 1). -/
abbrev P01 : FVec Ideal S2000 .f32 :=
  k0_pay29 (F := Ideal) (k0_pay8 x1) (k0_pay9 x1) (k0_pay10 x1) (k0_pay11 x1) (k0_pay12 x0) (k0_pay13 x0) (k0_pay15 x1) (k0_pay16 x1)

theorem c00_apply : C00 x0 x1 (ix1 r)
    = RS00 x0 x1 (ix1 r) * RS00 x0 x1 (ix1 r) + RS01 x0 x1 (ix1 r) * RS01 x0 x1 (ix1 r) + RS02 x0 x1 (ix1 r) * RS02 x0 x1 (ix1 r) := rfl

theorem p01_apply : P01 x0 x1 (ix1 r)
    = RS00 x0 x1 (ix1 r) * RS10 x0 x1 (ix1 r) + RS01 x0 x1 (ix1 r) * RS11 x0 x1 (ix1 r) := rfl

end Cert.KernelIdeal.BlockValue

end
-- ==== Proof.BlockValue.lean ====
/-
  One block of the kernel's output, entry by entry: row `r`, column `c` of what the body stores is
  entry `(c / 3, c % 3)` of row `r`'s covariance, computed from row `r` of the two input blocks.
  The body forms the six entries on and above the diagonal as three-term dot products of the scaled
  rotation's rows and stores each off-diagonal one twice; the Gram matrix is symmetric because the
  product of extended reals commutes.
-/
import proofs.«128820_j14929306321119_2_alg».proof.Proof.Gen.KernelIdeal.Frame
import proofs.«128820_j14929306321119_2_alg».proof.Proof.PayloadRot
import Idealize.ShloMosaic.Lib.Pipeline.Value

noncomputable section

namespace Cert.KernelIdeal.BlockValue

open Idealize.ShloMosaic Idealize.ShloMosaic.TcCoe Idealize.ShloMosaic.ValueIdx Idealize.ShloMosaic.NineColumns
open Cert.KernelIdeal Cert.KernelIdeal.Gen Cert.Covariance
open scoped BigOperators

/-! ### The Gram matrix: its entries written out, and its symmetry -/

theorem cov_eq (s : Fin 3 → EReal) (u : Fin 4 → EReal) (i k : Fin 3) :
    cov s u i k = rot u i 0 * s 0 * (rot u k 0 * s 0) + rot u i 1 * s 1 * (rot u k 1 * s 1)
      + rot u i 2 * s 2 * (rot u k 2 * s 2) := by
  unfold cov; rw [Fin.sum_univ_three]

theorem cov_symm (s : Fin 3 → EReal) (u : Fin 4 → EReal) (i k : Fin 3) : cov s u i k = cov s u k i := by
  unfold cov; exact Finset.sum_congr rfl (fun j _ => mul_comm _ _)

/-! ### The nine stored columns -/

/-- The nine columns the body lays side by side, from the nine scaled entries and the two dot products it
    formed earlier: the entries (0,0), (0,1), (0,2), (0,1), (1,1), (1,2), (0,2), (1,2), (2,2). -/
def cols (v84 v85 v86 v87 v88 v89 v90 v91 v92 v97 v100 : FVec Ideal S2000 .f32) : Fin 9 → FVec Ideal S2000 .f32 :=
  ![v97,
    addf v100 (mulf v86 v89),
    addf (addf (mulf v84 v90) (mulf v85 v91)) (mulf v86 v92),
    addf v100 (mulf v86 v89),
    addf (addf (mulf v87 v87) (mulf v88 v88)) (mulf v89 v89),
    addf (addf (mulf v87 v90) (mulf v88 v91)) (mulf v89 v92),
    addf (addf (mulf v84 v90) (mulf v85 v91)) (mulf v86 v92),
    addf (addf (mulf v87 v90) (mulf v88 v91)) (mulf v89 v92),
    addf (addf (mulf v90 v90) (mulf v91 v91)) (mulf v92 v92)]

/-- The stored value at `(r, c)` is column `c` at row `r`. -/
theorem store_apply (v84 v85 v86 v87 v88 v89 v90 v91 v92 v97 v100 : FVec Ideal S2000 .f32) (r : Fin 2000) (c : Fin 9) :
    k0_pay1 (F := Ideal) v84 v85 v86 v87 v88 v89 v90 v91 v92 v97 v100 (ix2 r c)
      = cols v84 v85 v86 v87 v88 v89 v90 v91 v92 v97 v100 c (ix1 r) :=
  (concat9_apply (a := 2000)
    (fun c => shapeCast S2000x1 (cols v84 v85 v86 v87 v88 v89 v90 v91 v92 v97 v100 c) shapeCasts_S2000_S2000x1)
    Facts₀.concatenates_S2000x1_S2000x1_S2000x1_S2000x1_S2000x1_S2000x1_S2000x1_S2000x1_S2000x1_S2000x9_d1 r c).trans
    (shapeCast_a_a1_apply _ _ r 0)

/-! ### What the body stores, over the named pieces -/

theorem hz : (![0, 0] : Fin 2 → Nat) = fun _ => 0 := funext fun a => by fin_cases a <;> rfl

theorem out_eq (x0 : Vec Ideal S2000x3 .f32) (x1 : Vec Ideal S2000x4 .f32) :
    out0_2 (F := Ideal) x0 x1 = k0_pay1 (F := Ideal) (RS00 x0 x1) (RS01 x0 x1) (RS02 x0 x1) (RS10 x0 x1) (RS11 x0 x1)
      (RS12 x0 x1) (RS20 x0 x1) (RS21 x0 x1) (RS22 x0 x1) (C00 x0 x1) (P01 x0 x1) := by
  unfold out0_2
  rw [View.canon_unit_zero hz]
  simp only [View.ld_unit_zero (S := S2000x3) hz, View.ld_unit_zero (S := S2000x4) hz]

/-! ### The six entries on and above the diagonal -/

variable (x0 : Vec Ideal S2000x3 .f32) (x1 : Vec Ideal S2000x4 .f32) (r : Fin 2000)

theorem entry00 : C00 x0 x1 (ix1 r) = cov (scale x0 r) (uq x1 r) 0 0 := by
  rw [c00_apply, rs00_apply, rs01_apply, rs02_apply, cov_eq]

theorem entry01 : P01 x0 x1 (ix1 r) + RS02 x0 x1 (ix1 r) * RS12 x0 x1 (ix1 r) = cov (scale x0 r) (uq x1 r) 0 1 := by
  rw [p01_apply, rs00_apply, rs01_apply, rs02_apply, rs10_apply, rs11_apply, rs12_apply, cov_eq]

theorem entry02 : RS00 x0 x1 (ix1 r) * RS20 x0 x1 (ix1 r) + RS01 x0 x1 (ix1 r) * RS21 x0 x1 (ix1 r)
    + RS02 x0 x1 (ix1 r) * RS22 x0 x1 (ix1 r) = cov (scale x0 r) (uq x1 r) 0 2 := by
  rw [rs00_apply, rs01_apply, rs02_apply, rs20_apply, rs21_apply, rs22_apply, cov_eq]

theorem entry11 : RS10 x0 x1 (ix1 r) * RS10 x0 x1 (ix1 r) + RS11 x0 x1 (ix1 r) * RS11 x0 x1 (ix1 r)
    + RS12 x0 x1 (ix1 r) * RS12 x0 x1 (ix1 r) = cov (scale x0 r) (uq x1 r) 1 1 := by
  rw [rs10_apply, rs11_apply, rs12_apply, cov_eq]

theorem entry12 : RS10 x0 x1 (ix1 r) * RS20 x0 x1 (ix1 r) + RS11 x0 x1 (ix1 r) * RS21 x0 x1 (ix1 r)
    + RS12 x0 x1 (ix1 r) * RS22 x0 x1 (ix1 r) = cov (scale x0 r) (uq x1 r) 1 2 := by
  rw [rs10_apply, rs11_apply, rs12_apply, rs20_apply, rs21_apply, rs22_apply, cov_eq]

theorem entry22 : RS20 x0 x1 (ix1 r) * RS20 x0 x1 (ix1 r) + RS21 x0 x1 (ix1 r) * RS21 x0 x1 (ix1 r)
    + RS22 x0 x1 (ix1 r) * RS22 x0 x1 (ix1 r) = cov (scale x0 r) (uq x1 r) 2 2 := by
  rw [rs20_apply, rs21_apply, rs22_apply, cov_eq]

/-! ### The block -/

theorem block_apply (x0 : Vec Ideal S2000x3 .f32) (x1 : Vec Ideal S2000x4 .f32) (r : Fin 2000) (c : Fin 9) :
    Cert.KernelIdeal.Gen.out0_2 (F := Ideal) x0 x1 (ix2 r c) = Cert.Covariance.flat (N := 2000) x0 x1 (ix2 r c) := by
  rw [out_eq, store_apply, flat_apply]
  fin_cases c
  · exact entry00 x0 x1 r
  · exact entry01 x0 x1 r
  · exact entry02 x0 x1 r
  · exact (entry01 x0 x1 r).trans (cov_symm _ _ 0 1)
  · exact entry11 x0 x1 r
  · exact entry12 x0 x1 r
  · exact (entry02 x0 x1 r).trans (cov_symm _ _ 0 2)
  · exact (entry12 x0 x1 r).trans (cov_symm _ _ 1 2)
  · exact entry22 x0 x1 r

end Cert.KernelIdeal.BlockValue

end
-- ==== Proof.KernelValue.lean ====
/-
  From one block of the kernel's output to the whole result.

  The grid has 2000 points; point `t` reads rows `2000 t … 2000 t + 1999` of the two input matrices and writes
  the same rows of the `[4000000, 9]` matrix. One block of what the body stores is, entry by entry, the
  flattened covariance of the block's own rows (`BlockValue.block_apply`), and row `r` of block `t` of an
  input is row `2000 t + r` of the input; so point `t` writes back block `t` of the flattened covariance of the
  whole inputs. Row `n` lies in the block of point `n / 2000`, so the blocks cover the matrix, and after the
  region it is the flattened covariance of the inputs. The host then regroups the nine columns of each row
  as a 3×3 matrix: entry `(n, i, k)` is column `3 i + k` of row `n`, the covariance entry
  `((3 i + k) / 3, (3 i + k) % 3) = (i, k)` of row `n`.
-/
import proofs.«128820_j14929306321119_2_alg».proof.Proof.Gen.KernelIdeal.Frame
import proofs.«128820_j14929306321119_2_alg».proof.Proof.Spec
import proofs.«128820_j14929306321119_2_alg».proof.Proof.LibNineColumns
import proofs.«128820_j14929306321119_2_alg».proof.Proof.BlockValue
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The index maps over the grid -/

/-- At point `t` each window's block index is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A grid point is below 2000. -/
theorem point_lt (t : Fin cfg0.N) : t.val < 2000 := by
  exact lt_of_lt_of_eq t.isLt (N_0 : cfg0.N = 2000)

/-- Row `r` of block `t` as a row of the whole matrix: `2000 t + r`. -/
def row (t : Fin cfg0.N) (r : Fin 2000) : Fin 4000000 :=
  ⟨2000 * t.val + r.val, by have := point_lt t; have := r.isLt; omega⟩

theorem row_val (t : Fin cfg0.N) (r : Fin 2000) : (row t r).val = 2000 * t.val + r.val := rfl

/-! ## A block's entries as entries of the whole matrix -/

/-- Entry `(r, j)` of block `t` of the log-scales is entry `(2000 t + r, j)` of the log-scales. -/
theorem iblk0_apply (c : Dev nD) (t : Fin cfg0.N) (r : Fin 2000) (j : Fin 3) :
    (iblk m c 0 t : Vec Ideal S2000x3 .f32) (ix2 r j) = V m c main_arg0 (ix2 (row t r) j) := by
  unfold iblk
  rw [View.read_apply]
  show V m c main_arg0 _ = _
  congr 1
  funext a
  apply Fin.ext
  obtain ⟨e0, e1, -, -, -, -⟩ := idx_facts t
  match a with
  | ⟨0, _⟩ => show win0_0.index t (0 : Fin 2) * 2000 + 1 * r.val = 2000 * t.val + r.val; rw [e0]; omega
  | ⟨1, _⟩ => show win0_0.index t (1 : Fin 2) * 3 + 1 * j.val = j.val; rw [e1]; omega

/-- Entry `(r, l)` of block `t` of the quaternions is entry `(2000 t + r, l)` of the quaternions. -/
theorem iblk1_apply (c : Dev nD) (t : Fin cfg0.N) (r : Fin 2000) (l : Fin 4) :
    (iblk m c 1 t : Vec Ideal S2000x4 .f32) (ix2 r l) = V m c main_arg1 (ix2 (row t r) l) := by
  unfold iblk
  rw [View.read_apply]
  show V m c main_arg1 _ = _
  congr 1
  funext a
  apply Fin.ext
  obtain ⟨-, -, e2, e3, -, -⟩ := idx_facts t
  match a with
  | ⟨0, _⟩ => show win0_1.index t (0 : Fin 2) * 2000 + 1 * r.val = 2000 * t.val + r.val; rw [e2]; omega
  | ⟨1, _⟩ => show win0_1.index t (1 : Fin 2) * 4 + 1 * l.val = l.val; rw [e3]; omega

/-- Entry `(r, cc)` of the output's block `t` sits at `(2000 t + r, cc)` of the output matrix. -/
theorem oblk_emb (t : Fin cfg0.N) (r : Fin 2000) (cc : Fin 9) :
    ((cfg0.win 2).blk t).view.emb (ix2 r cc) = (ix2 (row t r) cc : S4000000x9.Idx) := by
  funext a
  apply Fin.ext
  obtain ⟨-, -, -, -, e4, e5⟩ := idx_facts t
  match a with
  | ⟨0, _⟩ => show win0_2.index t (0 : Fin 2) * 2000 + 1 * r.val = 2000 * t.val + r.val; rw [e4]; omega
  | ⟨1, _⟩ => show win0_2.index t (1 : Fin 2) * 9 + 1 * cc.val = cc.val; rw [e5]; omega

/-! ## What a point writes back -/

/-- Point `t` writes back block `t` of the flattened covariance of the whole inputs. -/
theorem flushed_eq (c : Dev nD) (t : Fin cfg0.N) :
    (dats m 0 c).flushed 2 t = ((cfg0.win 2).blk t).view.read (Elt Ideal)
      (Cert.Covariance.flat (N := 4000000) (V m c main_arg0) (V m c main_arg1)) := by
  show (cfg0.win 2).cut (grid0.coords t) ((dats m 0 c).after 2 t) = _
  rw [after0_2]
  funext j
  obtain ⟨r, cc, rfl⟩ : ∃ (r : Fin 2000) (cc : Fin 9), j = ix2 r cc := ⟨j 0, j 1, eq_ix2 j⟩
  rw [View.read_apply]
  show out0_2 (iblk m c 0 t) (iblk m c 1 t) (ix2 r cc)
    = Cert.Covariance.flat (N := 4000000) (V m c main_arg0) (V m c main_arg1) (((cfg0.win 2).blk t).view.emb (ix2 r cc))
  rw [oblk_emb t r cc]
  refine (Cert.KernelIdeal.BlockValue.block_apply _ _ r cc).trans ?_
  rw [Cert.Covariance.flat_apply, Cert.Covariance.flat_apply]
  unfold Cert.Covariance.rowCov
  have e0 : (fun j : Fin 3 => Ideal.exp ((iblk m c 0 t : Vec Ideal S2000x3 .f32) (ix2 r j)))
      = fun j : Fin 3 => Ideal.exp (V m c main_arg0 (ix2 (row t r) j)) :=
    funext fun j => congrArg Ideal.exp (iblk0_apply m c t r j)
  have e1 : (fun l : Fin 4 => (iblk m c 1 t : Vec Ideal S2000x4 .f32) (ix2 r l))
      = fun l : Fin 4 => V m c main_arg1 (ix2 (row t r) l) :=
    funext fun l => iblk1_apply m c t r l
  rw [e0, e1]

/-! ## The blocks cover the matrix -/

/-- An index of the matrix is in point `t`'s block iff each coordinate is in the block's range on its axis. -/
theorem mem_blk (t : Fin cfg0.N) (i : S4000000x9.Idx) :
    i ∈ ((cfg0.win 2).blk t).view.set ↔ ∀ a : Fin 2, win0_2.index t a * S2000x9.size a ≤ (i a).val
      ∧ (i a).val < win0_2.index t a * S2000x9.size a + S2000x9.size a := by
  show i ∈ ((View.whole main_v0).slice (win0_2.rect t)).set ↔ _
  rw [View.set_slice_whole, Rect.mem_set_unit]
  exact Iff.rfl

/-- Row `n` is in the block of point `n / 2000`, which writes back. -/
theorem cover (i : S4000000x9.Idx) :
    ∃ t : Fin cfg0.N, (cfg0.win 2).flush t = true ∧ i ∈ ((cfg0.win 2).blk t).view.set := by
  have hi0 : (i 0).val < 4000000 := (i 0).isLt
  have hi1 : (i 1).val < 9 := (i 1).isLt
  have ht : (i 0).val / 2000 < cfg0.N := by rw [show cfg0.N = 2000 from N_0]; omega
  refine ⟨⟨(i 0).val / 2000, ht⟩, flush0_2 _, ?_⟩
  rw [mem_blk]
  obtain ⟨-, -, -, -, e4, e5⟩ := idx_facts ⟨(i 0).val / 2000, ht⟩
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 9 ≤ (i 1).val
      ∧ (i 1).val < win0_2.index ⟨(i 0).val / 2000, ht⟩ (1 : Fin 2) * 9 + 9
    rw [e5]
    omega

/-- After the region the `[4000000, 9]` matrix is the flattened covariance of the inputs. -/
theorem final (c : Dev nD) : (dats m 0 c).arrAt 2 cfg0.N
    = Cert.Covariance.flat (N := 4000000) (m ((c.tc : Thread nD τ).loc main_arg0)) (m ((c.tc : Thread nD τ).loc main_arg1)) := by
  have h := (dats m 0 c).arrAt_eq_of_cover 2
    (Cert.Covariance.flat (N := 4000000) (V m c main_arg0) (V m c main_arg1)) (fun t _ => flushed_eq m c t) cover
  rw [V_main_arg0, V_main_arg1] at h
  exact h

/-! ## The host's regrouping after the region -/

/-- Column `3 i + k` of a row is its covariance entry `(i, k)`. -/
theorem flat_ix (A0 : S4000000x3.Idx → EReal) (A1 : S4000000x4.Idx → EReal) (n : Fin 4000000) (i k : Fin 3) :
    Cert.Covariance.flat (N := 4000000) A0 A1 (ix2 n (⟨3 * i.val + k.val, by omega⟩ : Fin 9))
      = Cert.Covariance.result (N := 4000000) A0 A1 (ix3 n i k) := by
  rw [Cert.Covariance.flat_apply, Cert.Covariance.result_apply]
  exact congrArg₂ (Cert.Covariance.rowCov A0 A1 n)
    (Fin.ext (by show (3 * i.val + k.val) / 3 = i.val; omega))
    (Fin.ext (by show (3 * i.val + k.val) % 3 = k.val; omega))

/-- The flattened covariance regrouped as `[4000000, 3, 3]` is the result. -/
theorem regroup (A0 : S4000000x3.Idx → EReal) (A1 : S4000000x4.Idx → EReal)
    (h : S4000000x9.ShapeCasts S4000000x3x3) :
    shapeCast S4000000x3x3 (Cert.Covariance.flat (N := 4000000) A0 A1) h = Cert.Covariance.result (N := 4000000) A0 A1 := by
  funext j
  obtain ⟨n, i, k, rfl⟩ : ∃ (n : Fin 4000000) (i k : Fin 3), j = ix3 n i k := ⟨j 0, j 1, j 2, eq_ix3 j⟩
  exact (NineColumns.shapeCast_a9_a33_apply _ h n i k ⟨3 * i.val + k.val, by omega⟩ rfl).trans (flat_ix A0 A1 n i k)

/-- What the lines after the region leave in the result buffer: the result. -/
theorem tail_eq (c : Dev nD) :
    Pipeline.afterTail₀ cfgs (dats m) 0 (V0 m) [hostOps1] c main_v1
      = Cert.Covariance.result (N := 4000000) (m ((c.tc : Thread nD τ).loc main_arg0)) (m ((c.tc : Thread nD τ).loc main_arg1)) := by
  unfold Pipeline.afterTail₀
  show StableHlo.after hostOps1 _ (Proc.devRef .tc main_v1) = _
  after_results
  have hv : Pipeline.withArrays (cfgs 0).spec c (V0 m c) (fun w => (dats m 0 c).arrAt w (cfgs 0).N) (Proc.devRef .tc main_v0)
      = Cert.Covariance.flat (N := 4000000) (m ((c.tc : Thread nD τ).loc main_arg0)) (m ((c.tc : Thread nD τ).loc main_arg1)) :=
    (Pipeline.withArrays_arr spec0 launch0.win.arr_inj c _ _ 2).trans (final m c)
  rw [hv]
  exact regroup _ _ shapeCasts_S4000000x9_S4000000x3x3

/-! ## The run -/

/-- Every execution of @main terminates with the result buffer at the covariance of the inputs and the inputs unchanged. -/
theorem run : θ_run (Cert.KernelIdeal.defs (F := Ideal)) (onTc (τ := τ) (Cert.KernelIdeal.main (F := Ideal))) ⟨m, fun _ => 0, ρ⟩ fun r => ∀ c : Dev nD,
      r.2.mem ((c.tc : Thread nD τ).loc main_v1) = Cert.Covariance.result (N := 4000000) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelValue

end
-- ==== Proof.RefValue.lean ====
/-
  The reference program's value is the specification.

  The reference normalises each row's quaternion by its length clamped below by a small positive constant,
  writes the nine entries of the quaternion's rotation matrix as nine columns laid side by side and regrouped
  as a 3×3 matrix per row, scales the matrix's columns by the exponentials of the row's log-scales, and
  contracts the scaled matrix with itself along its columns. Read at row `n` and entry `(i, k)`, each step is
  the step of `Cert.Covariance` of the same name: the clamp is `len`, the quotient `unitq`, the nine columns
  `rot`, the contraction `cov`. The lemmas below read the program one layer at a time, the row `n` kept a
  variable throughout.
-/
import proofs.«128820_j14929306321119_2_alg».proof.Proof.Gen.ReferenceIdeal.Read
import proofs.«128820_j14929306321119_2_alg».proof.Proof.Spec
import proofs.«128820_j14929306321119_2_alg».proof.Proof.LibNineColumns
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read
open scoped BigOperators

/-- The matrix of quaternions, `[4000000, 4]`. -/
abbrev Quats := (⟨S4000000x4, .f32⟩ : BufTy).Contents (Elt Ideal)
/-- The matrix of log-scales, `[4000000, 3]`. -/
abbrev LogScales := (⟨S4000000x3, .f32⟩ : BufTy).Contents (Elt Ideal)

/-- Row `n`'s quaternion. -/
abbrev quat (x1 : Quats) (n : Fin 4000000) : Fin 4 → EReal := fun l => x1 (ix2 n l)

/-- Row `n`'s normalised quaternion. -/
abbrev unit (x1 : Quats) (n : Fin 4000000) : Fin 4 → EReal := Cert.Covariance.unitq (quat x1 n)

/-! ## The clamped length and the normalised quaternion -/

/-- The sum of the squares of row `n`'s quaternion, as the reference's reduction reads it. -/
theorem sumsq_eq (x1 : Quats) (n : Fin 4000000) :
    val_main_call0_v1 (F := Ideal) x1 (ix1 n)
      = quat x1 n 0 * quat x1 n 0 + quat x1 n 1 * quat x1 n 1 + quat x1 n 2 * quat x1 n 2 + quat x1 n 3 * quat x1 n 3 := by
  have e : ∀ k : Fin 4, idx_main_call0_v1 (ix1 n) k = ix2 n k := fun k =>
    funext fun a => Fin.ext (by match a with | ⟨0, _⟩ => rfl | ⟨1, _⟩ => rfl)
  rw [val_main_call0_v1_apply]
  simp only [e, val_main_call0_cst_apply, val_main_call0_v0_apply, Ideal.ofBits_def, Ideal.mulf_def,
    Ideal.ofBits_zero_f32, zero_add, Fin.sum_univ_four]

/-- The clamped length of row `n`'s quaternion. -/
theorem clamp_eq (x1 : Quats) (n : Fin 4000000) :
    val_main_v2 (F := Ideal) x1 (ix2 n (0 : Fin 1)) = Cert.Covariance.len (quat x1 n) := by
  have e : idx_main_call0_v2 (ix2 n (0 : Fin 1)) = ix1 n :=
    funext fun a => Fin.ext (by match a with | ⟨0, _⟩ => rfl)
  rw [val_main_v2_apply, val_main_call1_v1_apply, val_main_call1_v0_apply, val_main_cst_apply,
    val_main_v1_apply, val_main_call0_v2_apply, e, sumsq_eq]
  simp only [Ideal.ofBits_def, Ideal.maximumf_def, Ideal.hostUnary_sqrt_def]
  exact max_comm _ _

/-- The quotient of row `n`'s quaternion by its clamped length, component `l`. -/
theorem normalised_eq (x1 : Quats) (n : Fin 4000000) (l : Fin 4) :
    val_main_v4 (F := Ideal) x1 (ix2 n l) = unit x1 n l := by
  have e : idx_main_v3 (ix2 n l) = ix2 n (0 : Fin 1) :=
    funext fun a => Fin.ext (by match a with | ⟨0, _⟩ => rfl | ⟨1, _⟩ => rfl)
  rw [val_main_v4_apply, val_main_v3_apply, e, clamp_eq]
  rfl

/-! ## The four components cut out as vectors -/

/-- The first component, cut out of the normalised quaternions as a column and flattened. -/
theorem comp0_eq (x1 : Quats) (n : Fin 4000000) : val_main_v6 (F := Ideal) x1 (ix1 n) = unit x1 n 0 := by
  refine Eq.trans ?_ (normalised_eq x1 n 0)
  unfold val_main_v6 val_main_v5
  exact NineColumns.column_apply 0 _ _ _ n (0 : Fin 4) rfl

/-- The second component. -/
theorem comp1_eq (x1 : Quats) (n : Fin 4000000) : val_main_v8 (F := Ideal) x1 (ix1 n) = unit x1 n 1 := by
  refine Eq.trans ?_ (normalised_eq x1 n 1)
  unfold val_main_v8 val_main_v7
  exact NineColumns.column_apply 1 _ _ _ n (1 : Fin 4) rfl

/-- The third component. -/
theorem comp2_eq (x1 : Quats) (n : Fin 4000000) : val_main_v10 (F := Ideal) x1 (ix1 n) = unit x1 n 2 := by
  refine Eq.trans ?_ (normalised_eq x1 n 2)
  unfold val_main_v10 val_main_v9
  exact NineColumns.column_apply 2 _ _ _ n (2 : Fin 4) rfl

/-- The fourth component. -/
theorem comp3_eq (x1 : Quats) (n : Fin 4000000) : val_main_v12 (F := Ideal) x1 (ix1 n) = unit x1 n 3 := by
  refine Eq.trans ?_ (normalised_eq x1 n 3)
  unfold val_main_v12 val_main_v11
  exact NineColumns.column_apply 3 _ _ _ n (3 : Fin 4) rfl

/-! ## The nine rotation entries, each a vector over the rows -/

open Cert.Covariance (one two)

/-- Entry `(0, 0)`: `1 - 2 (y² + z²)`. -/
theorem entry00_eq (x1 : Quats) (n : Fin 4000000) :
    val_main_v19 (F := Ideal) x1 (ix1 n)
      = one - two * (unit x1 n 2 * unit x1 n 2 + unit x1 n 3 * unit x1 n 3) := by
  rw [val_main_v19_apply, val_main_v18_apply, val_main_cst_1_apply, val_main_v17_apply, val_main_v16_apply, val_main_cst_0_apply, val_main_v15_apply, val_main_v13_apply, val_main_v14_apply, comp2_eq, comp3_eq]
  rfl

/-- Entry `(0, 1)`: `2 (x y - w z)`. -/
theorem entry01_eq (x1 : Quats) (n : Fin 4000000) :
    val_main_v24 (F := Ideal) x1 (ix1 n)
      = two * (unit x1 n 1 * unit x1 n 2 - unit x1 n 0 * unit x1 n 3) := by
  rw [val_main_v24_apply, val_main_v23_apply, val_main_cst_2_apply, val_main_v22_apply, val_main_v20_apply, val_main_v21_apply, comp0_eq, comp1_eq, comp2_eq, comp3_eq]
  rfl

/-- Entry `(0, 2)`: `2 (x z + w y)`. -/
theorem entry02_eq (x1 : Quats) (n : Fin 4000000) :
    val_main_v29 (F := Ideal) x1 (ix1 n)
      = two * (unit x1 n 1 * unit x1 n 3 + unit x1 n 0 * unit x1 n 2) := by
  rw [val_main_v29_apply, val_main_v28_apply, val_main_cst_3_apply, val_main_v27_apply, val_main_v25_apply, val_main_v26_apply, comp0_eq, comp1_eq, comp2_eq, comp3_eq]
  rfl

/-- Entry `(1, 0)`: `2 (x y + w z)`. -/
theorem entry10_eq (x1 : Quats) (n : Fin 4000000) :
    val_main_v34 (F := Ideal) x1 (ix1 n)
      = two * (unit x1 n 1 * unit x1 n 2 + unit x1 n 0 * unit x1 n 3) := by
  rw [val_main_v34_apply, val_main_v33_apply, val_main_cst_4_apply, val_main_v32_apply, val_main_v30_apply, val_main_v31_apply, comp0_eq, comp1_eq, comp2_eq, comp3_eq]
  rfl

/-- Entry `(1, 1)`: `1 - 2 (x² + z²)`. -/
theorem entry11_eq (x1 : Quats) (n : Fin 4000000) :
    val_main_v41 (F := Ideal) x1 (ix1 n)
      = one - two * (unit x1 n 1 * unit x1 n 1 + unit x1 n 3 * unit x1 n 3) := by
  rw [val_main_v41_apply, val_main_v40_apply, val_main_cst_6_apply, val_main_v39_apply, val_main_v38_apply, val_main_cst_5_apply, val_main_v37_apply, val_main_v35_apply, val_main_v36_apply, comp1_eq, comp3_eq]
  rfl

/-- Entry `(1, 2)`: `2 (y z - w x)`. -/
theorem entry12_eq (x1 : Quats) (n : Fin 4000000) :
    val_main_v46 (F := Ideal) x1 (ix1 n)
      = two * (unit x1 n 2 * unit x1 n 3 - unit x1 n 0 * unit x1 n 1) := by
  rw [val_main_v46_apply, val_main_v45_apply, val_main_cst_7_apply, val_main_v44_apply, val_main_v42_apply, val_main_v43_apply, comp0_eq, comp1_eq, comp2_eq, comp3_eq]
  rfl

/-- Entry `(2, 0)`: `2 (x z - w y)`. -/
theorem entry20_eq (x1 : Quats) (n : Fin 4000000) :
    val_main_v51 (F := Ideal) x1 (ix1 n)
      = two * (unit x1 n 1 * unit x1 n 3 - unit x1 n 0 * unit x1 n 2) := by
  rw [val_main_v51_apply, val_main_v50_apply, val_main_cst_8_apply, val_main_v49_apply, val_main_v47_apply, val_main_v48_apply, comp0_eq, comp1_eq, comp2_eq, comp3_eq]
  rfl

/-- Entry `(2, 1)`: `2 (y z + w x)`. -/
theorem entry21_eq (x1 : Quats) (n : Fin 4000000) :
    val_main_v56 (F := Ideal) x1 (ix1 n)
      = two * (unit x1 n 2 * unit x1 n 3 + unit x1 n 0 * unit x1 n 1) := by
  rw [val_main_v56_apply, val_main_v55_apply, val_main_cst_9_apply, val_main_v54_apply, val_main_v52_apply, val_main_v53_apply, comp0_eq, comp1_eq, comp2_eq, comp3_eq]
  rfl

/-- Entry `(2, 2)`: `1 - 2 (x² + y²)`. -/
theorem entry22_eq (x1 : Quats) (n : Fin 4000000) :
    val_main_v63 (F := Ideal) x1 (ix1 n)
      = one - two * (unit x1 n 1 * unit x1 n 1 + unit x1 n 2 * unit x1 n 2) := by
  rw [val_main_v63_apply, val_main_v62_apply, val_main_cst_11_apply, val_main_v61_apply, val_main_v60_apply, val_main_cst_10_apply, val_main_v59_apply, val_main_v57_apply, val_main_v58_apply, comp1_eq, comp2_eq]
  rfl

/-! ## The nine columns side by side, regrouped as a 3×3 matrix per row -/

/-- Column `0` of the nine is the vector of that entry stood up as a column. -/
theorem col0_eq (x1 : Quats) (n : Fin 4000000) :
    val_main_v64 (F := Ideal) x1 (ix2 n (0 : Fin 1)) = val_main_v19 (F := Ideal) x1 (ix1 n) := by
  rw [val_main_v64_apply]
  exact congrArg _ (funext fun a => Fin.ext (by match a with | ⟨0, _⟩ => rfl))

/-- Column `1` of the nine is the vector of that entry stood up as a column. -/
theorem col1_eq (x1 : Quats) (n : Fin 4000000) :
    val_main_v65 (F := Ideal) x1 (ix2 n (0 : Fin 1)) = val_main_v24 (F := Ideal) x1 (ix1 n) := by
  rw [val_main_v65_apply]
  exact congrArg _ (funext fun a => Fin.ext (by match a with | ⟨0, _⟩ => rfl))

/-- Column `2` of the nine is the vector of that entry stood up as a column. -/
theorem col2_eq (x1 : Quats) (n : Fin 4000000) :
    val_main_v66 (F := Ideal) x1 (ix2 n (0 : Fin 1)) = val_main_v29 (F := Ideal) x1 (ix1 n) := by
  rw [val_main_v66_apply]
  exact congrArg _ (funext fun a => Fin.ext (by match a with | ⟨0, _⟩ => rfl))

/-- Column `3` of the nine is the vector of that entry stood up as a column. -/
theorem col3_eq (x1 : Quats) (n : Fin 4000000) :
    val_main_v67 (F := Ideal) x1 (ix2 n (0 : Fin 1)) = val_main_v34 (F := Ideal) x1 (ix1 n) := by
  rw [val_main_v67_apply]
  exact congrArg _ (funext fun a => Fin.ext (by match a with | ⟨0, _⟩ => rfl))

/-- Column `4` of the nine is the vector of that entry stood up as a column. -/
theorem col4_eq (x1 : Quats) (n : Fin 4000000) :
    val_main_v68 (F := Ideal) x1 (ix2 n (0 : Fin 1)) = val_main_v41 (F := Ideal) x1 (ix1 n) := by
  rw [val_main_v68_apply]
  exact congrArg _ (funext fun a => Fin.ext (by match a with | ⟨0, _⟩ => rfl))

/-- Column `5` of the nine is the vector of that entry stood up as a column. -/
theorem col5_eq (x1 : Quats) (n : Fin 4000000) :
    val_main_v69 (F := Ideal) x1 (ix2 n (0 : Fin 1)) = val_main_v46 (F := Ideal) x1 (ix1 n) := by
  rw [val_main_v69_apply]
  exact congrArg _ (funext fun a => Fin.ext (by match a with | ⟨0, _⟩ => rfl))

/-- Column `6` of the nine is the vector of that entry stood up as a column. -/
theorem col6_eq (x1 : Quats) (n : Fin 4000000) :
    val_main_v70 (F := Ideal) x1 (ix2 n (0 : Fin 1)) = val_main_v51 (F := Ideal) x1 (ix1 n) := by
  rw [val_main_v70_apply]
  exact congrArg _ (funext fun a => Fin.ext (by match a with | ⟨0, _⟩ => rfl))

/-- Column `7` of the nine is the vector of that entry stood up as a column. -/
theorem col7_eq (x1 : Quats) (n : Fin 4000000) :
    val_main_v71 (F := Ideal) x1 (ix2 n (0 : Fin 1)) = val_main_v56 (F := Ideal) x1 (ix1 n) := by
  rw [val_main_v71_apply]
  exact congrArg _ (funext fun a => Fin.ext (by match a with | ⟨0, _⟩ => rfl))

/-- Column `8` of the nine is the vector of that entry stood up as a column. -/
theorem col8_eq (x1 : Quats) (n : Fin 4000000) :
    val_main_v72 (F := Ideal) x1 (ix2 n (0 : Fin 1)) = val_main_v63 (F := Ideal) x1 (ix1 n) := by
  rw [val_main_v72_apply]
  exact congrArg _ (funext fun a => Fin.ext (by match a with | ⟨0, _⟩ => rfl))

/-- The nine columns in the order the reference lays them side by side. -/
def cols (x1 : Quats) : Fin 9 → (S4000000x1.Idx → EReal)
  | ⟨0, _⟩ => val_main_v64 (F := Ideal) x1
  | ⟨1, _⟩ => val_main_v65 (F := Ideal) x1
  | ⟨2, _⟩ => val_main_v66 (F := Ideal) x1
  | ⟨3, _⟩ => val_main_v67 (F := Ideal) x1
  | ⟨4, _⟩ => val_main_v68 (F := Ideal) x1
  | ⟨5, _⟩ => val_main_v69 (F := Ideal) x1
  | ⟨6, _⟩ => val_main_v70 (F := Ideal) x1
  | ⟨7, _⟩ => val_main_v71 (F := Ideal) x1
  | ⟨8, _⟩ => val_main_v72 (F := Ideal) x1

theorem cols0 (x1 : Quats) : cols x1 0 = val_main_v64 (F := Ideal) x1 := rfl
theorem cols1 (x1 : Quats) : cols x1 1 = val_main_v65 (F := Ideal) x1 := rfl
theorem cols2 (x1 : Quats) : cols x1 2 = val_main_v66 (F := Ideal) x1 := rfl
theorem cols3 (x1 : Quats) : cols x1 3 = val_main_v67 (F := Ideal) x1 := rfl
theorem cols4 (x1 : Quats) : cols x1 4 = val_main_v68 (F := Ideal) x1 := rfl
theorem cols5 (x1 : Quats) : cols x1 5 = val_main_v69 (F := Ideal) x1 := rfl
theorem cols6 (x1 : Quats) : cols x1 6 = val_main_v70 (F := Ideal) x1 := rfl
theorem cols7 (x1 : Quats) : cols x1 7 = val_main_v71 (F := Ideal) x1 := rfl
theorem cols8 (x1 : Quats) : cols x1 8 = val_main_v72 (F := Ideal) x1 := rfl

/-- The `[4000000, 9]` matrix reads, at `(n, c)`, column `c` at row `n`. -/
theorem concat_eq (x1 : Quats) (n : Fin 4000000) (c : Fin 9) :
    val_main_v73 (F := Ideal) x1 (ix2 n c) = cols x1 c (ix2 n (0 : Fin 1)) := by
  unfold val_main_v73
  exact NineColumns.concat9_apply (cols x1) _ n c

/-- The regrouped matrix reads, at `(n, i, k)`, column `3 i + k` at row `n`. -/
theorem regroup_eq (x1 : Quats) (n : Fin 4000000) (i k : Fin 3) (c : Fin 9) (hc : c.val = 3 * i.val + k.val) :
    val_main_v74 (F := Ideal) x1 (ix3 n i k) = cols x1 c (ix2 n (0 : Fin 1)) := by
  refine Eq.trans ?_ (concat_eq x1 n c)
  unfold val_main_v74
  exact NineColumns.shapeCast_a9_a33_apply _ _ n i k c hc

theorem rot00 (u : Fin 4 → EReal) : Cert.Covariance.rot u 0 0 = one - two * (u 2 * u 2 + u 3 * u 3) := rfl
theorem rot01 (u : Fin 4 → EReal) : Cert.Covariance.rot u 0 1 = two * (u 1 * u 2 - u 0 * u 3) := rfl
theorem rot02 (u : Fin 4 → EReal) : Cert.Covariance.rot u 0 2 = two * (u 1 * u 3 + u 0 * u 2) := rfl
theorem rot10 (u : Fin 4 → EReal) : Cert.Covariance.rot u 1 0 = two * (u 1 * u 2 + u 0 * u 3) := rfl
theorem rot11 (u : Fin 4 → EReal) : Cert.Covariance.rot u 1 1 = one - two * (u 1 * u 1 + u 3 * u 3) := rfl
theorem rot12 (u : Fin 4 → EReal) : Cert.Covariance.rot u 1 2 = two * (u 2 * u 3 - u 0 * u 1) := rfl
theorem rot20 (u : Fin 4 → EReal) : Cert.Covariance.rot u 2 0 = two * (u 1 * u 3 - u 0 * u 2) := rfl
theorem rot21 (u : Fin 4 → EReal) : Cert.Covariance.rot u 2 1 = two * (u 2 * u 3 + u 0 * u 1) := rfl
theorem rot22 (u : Fin 4 → EReal) : Cert.Covariance.rot u 2 2 = one - two * (u 1 * u 1 + u 2 * u 2) := rfl

/-- The regrouped matrix is the rotation matrix of the row's normalised quaternion. -/
theorem rot_eq (x1 : Quats) (n : Fin 4000000) : ∀ i k : Fin 3,
    val_main_v74 (F := Ideal) x1 (ix3 n i k) = Cert.Covariance.rot (unit x1 n) i k
  | ⟨0, _⟩, ⟨0, _⟩ => (regroup_eq x1 n _ _ 0 rfl).trans <| (congrFun (cols0 x1) _).trans <|
      (col0_eq x1 n).trans <| (entry00_eq x1 n).trans (rot00 _).symm
  | ⟨0, _⟩, ⟨1, _⟩ => (regroup_eq x1 n _ _ 1 rfl).trans <| (congrFun (cols1 x1) _).trans <|
      (col1_eq x1 n).trans <| (entry01_eq x1 n).trans (rot01 _).symm
  | ⟨0, _⟩, ⟨2, _⟩ => (regroup_eq x1 n _ _ 2 rfl).trans <| (congrFun (cols2 x1) _).trans <|
      (col2_eq x1 n).trans <| (entry02_eq x1 n).trans (rot02 _).symm
  | ⟨1, _⟩, ⟨0, _⟩ => (regroup_eq x1 n _ _ 3 rfl).trans <| (congrFun (cols3 x1) _).trans <|
      (col3_eq x1 n).trans <| (entry10_eq x1 n).trans (rot10 _).symm
  | ⟨1, _⟩, ⟨1, _⟩ => (regroup_eq x1 n _ _ 4 rfl).trans <| (congrFun (cols4 x1) _).trans <|
      (col4_eq x1 n).trans <| (entry11_eq x1 n).trans (rot11 _).symm
  | ⟨1, _⟩, ⟨2, _⟩ => (regroup_eq x1 n _ _ 5 rfl).trans <| (congrFun (cols5 x1) _).trans <|
      (col5_eq x1 n).trans <| (entry12_eq x1 n).trans (rot12 _).symm
  | ⟨2, _⟩, ⟨0, _⟩ => (regroup_eq x1 n _ _ 6 rfl).trans <| (congrFun (cols6 x1) _).trans <|
      (col6_eq x1 n).trans <| (entry20_eq x1 n).trans (rot20 _).symm
  | ⟨2, _⟩, ⟨1, _⟩ => (regroup_eq x1 n _ _ 7 rfl).trans <| (congrFun (cols7 x1) _).trans <|
      (col7_eq x1 n).trans <| (entry21_eq x1 n).trans (rot21 _).symm
  | ⟨2, _⟩, ⟨2, _⟩ => (regroup_eq x1 n _ _ 8 rfl).trans <| (congrFun (cols8 x1) _).trans <|
      (col8_eq x1 n).trans <| (entry22_eq x1 n).trans (rot22 _).symm

/-! ## The scales, the scaled rotation and the contraction -/

/-- The scales spread over the rows of each 3×3 matrix: at `(n, i, j)` the exponential of log-scale `j` of row `n`. -/
theorem scale_eq (x0 : LogScales) (n : Fin 4000000) (i j : Fin 3) :
    val_main_v76 (F := Ideal) x0 (ix3 n i j) = Ideal.exp (x0 (ix2 n j)) := by
  have e : idx_main_v75 (idx_main_v76 (ix3 n i j)) = ix2 n j :=
    funext fun a => Fin.ext (by match a with | ⟨0, _⟩ => rfl | ⟨1, _⟩ => rfl)
  rw [val_main_v76_apply, val_main_v75_apply, e, val_main_v0_apply]
  rfl

/-- The rotation matrix with its columns scaled. -/
theorem scaled_eq (x0 : LogScales) (x1 : Quats) (n : Fin 4000000) (i j : Fin 3) :
    val_main_v77 (F := Ideal) x0 x1 (ix3 n i j)
      = Cert.Covariance.rot (unit x1 n) i j * Ideal.exp (x0 (ix2 n j)) := by
  rw [val_main_v77_apply, rot_eq, scale_eq]
  rfl

/-- The reference's value is the specification's result: entry `(n, i, k)` is the sum over `j` of the
    products of the scaled rotation's entries `(i, j)` and `(k, j)`. -/
theorem ref_eq (x0 : (⟨S4000000x3, .f32⟩ : BufTy).Contents (Elt Ideal)) (x1 : (⟨S4000000x4, .f32⟩ : BufTy).Contents (Elt Ideal)) :
    Cert.ReferenceIdeal.Read.val_main_v78 (F := Ideal) x0 x1 = Cert.Covariance.result (N := 4000000) x0 x1 := by
  funext j
  obtain ⟨n, i, k, rfl⟩ : ∃ (n : Fin 4000000) (i k : Fin 3), j = ix3 n i k := ⟨j 0, j 1, j 2, eq_ix3 j⟩
  have el : ∀ t : Fin 3, lidx_main_v78 (ix3 n i k) t = ix3 n i t := fun t =>
    funext fun a => Fin.ext (by match a with | ⟨0, _⟩ => rfl | ⟨1, _⟩ => rfl | ⟨2, _⟩ => rfl)
  have er : ∀ t : Fin 3, ridx_main_v78 (ix3 n i k) t = ix3 n k t := fun t =>
    funext fun a => Fin.ext (by match a with | ⟨0, _⟩ => rfl | ⟨1, _⟩ => rfl | ⟨2, _⟩ => rfl)
  rw [val_main_v78_apply, Cert.Covariance.result_apply]
  unfold Cert.Covariance.rowCov Cert.Covariance.cov
  refine Finset.sum_congr rfl fun t _ => ?_
  rw [el, er, scaled_eq, scaled_eq]

end Cert.ReferenceIdeal.RefValue

end
-- ==== Proof.lean ====
/-
  A covariance kernel against its reference, on the extended reals.

  Each of the 4,000,000 rows carries three log-scales and a quaternion. Both programs divide the quaternion
  by its length clamped below by a small positive constant, form the rotation matrix of the result, scale its
  columns by the exponentials of the log-scales, and return the Gram matrix of the rows of that scaled
  rotation, a 3×3 matrix per row (Proof/Spec.lean states it once: `Cert.Covariance.result`).

  The kernel walks the rows in 2000 blocks of 2000. In a block it multiplies each quaternion component by the
  reciprocal of the clamped length, where the reference divides by the clamped length: the clamp is positive,
  so the clamped length is not zero and both are the product with its inverse, for every extended real
  numerator (Proof/Algebra.lean). It writes the six entries on and above the diagonal as three-term sums in the
  order the reference's contraction has them, and stores the off-diagonal ones twice, where the reference
  contracts both orders: the product commutes (Proof/BlockValue.lean, over Proof/PayloadColumns.lean and
  Proof/PayloadRot.lean). The blocks tile the [4000000, 9] array, which the program then regroups as
  [4000000, 3, 3] (Proof/KernelValue.lean). The reference's sum of the four squares starts from zero and
  clamps with the operands of the maximum in the other order (Proof/RefValue.lean). Neither step needs the
  inputs finite: the precondition is not opened.

  The frames of the two kernel programs are the generated ones; the reference's frame is its generated run
  with the result dropped; the idealization rewrote nothing, so `preserves` is `True`.
-/
import proofs.«128820_j14929306321119_2_alg».proof.Defs
import proofs.«128820_j14929306321119_2_alg».proof.Proof.Gen.Kernel
import proofs.«128820_j14929306321119_2_alg».proof.Proof.Gen.Kernel.Skeleton
import proofs.«128820_j14929306321119_2_alg».proof.Proof.Gen.Kernel.Launch
import proofs.«128820_j14929306321119_2_alg».proof.Proof.Gen.Kernel.Points
import proofs.«128820_j14929306321119_2_alg».proof.Proof.Gen.Kernel.Frame
import proofs.«128820_j14929306321119_2_alg».proof.Proof.Gen.KernelIdeal
import proofs.«128820_j14929306321119_2_alg».proof.Proof.Gen.KernelIdeal.Skeleton
import proofs.«128820_j14929306321119_2_alg».proof.Proof.Gen.KernelIdeal.Launch
import proofs.«128820_j14929306321119_2_alg».proof.Proof.Gen.KernelIdeal.Points
import proofs.«128820_j14929306321119_2_alg».proof.Proof.Gen.KernelIdeal.Frame
import proofs.«128820_j14929306321119_2_alg».proof.Proof.Gen.ReferenceIdeal
import proofs.«128820_j14929306321119_2_alg».proof.Proof.Gen.ReferenceIdeal.Run
import proofs.«128820_j14929306321119_2_alg».proof.Proof.Gen.ReferenceIdeal.Read
import proofs.«128820_j14929306321119_2_alg».proof.Proof.Gen.Pre_finite_inputs
import proofs.«128820_j14929306321119_2_alg».proof.Proof.KernelValue
import proofs.«128820_j14929306321119_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `Cert.Covariance.result` of the two argument arrays, which agree. -/
theorem algebraic : Cert.algebraic_KernelIdeal_ReferenceIdeal := by
  intro m ρ m' ρ' _ hagree
  refine ⟨fun c => Cert.Covariance.result (N := 4000000)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v78_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
